-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048 : Shape := ⟨2, ![4, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x2048 : Shape := ⟨2, ![4, 2048]⟩
abbrev S64x2048x64 : Shape := ⟨3, ![64, 2048, 64]⟩
abbrev S_ : Shape := ⟨0, ![]⟩
abbrev S4x16x2048 : Shape := ⟨3, ![4, 16, 2048]⟩
abbrev S64x2048 : Shape := ⟨2, ![64, 2048]⟩
abbrev S64x1x2048 : Shape := ⟨3, ![64, 1, 2048]⟩
abbrev S1x256x64 : Shape := ⟨3, ![1, 256, 64]⟩
abbrev S1x2048x64 : Shape := ⟨3, ![1, 2048, 64]⟩
abbrev S1x1x2048 : Shape := ⟨3, ![1, 1, 2048]⟩
abbrev S256x64 : Shape := ⟨2, ![256, 64]⟩
abbrev S2048x64 : Shape := ⟨2, ![2048, 64]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x16x2048, .f32⟩
  | .hbm, ⟨15, _⟩ => ⟨S64x2048, .f32⟩
  | .hbm, ⟨16, _⟩ => ⟨S64x1x2048, .f32⟩
  | .hbm, ⟨17, _⟩ => ⟨S64x2048x64, .f32⟩
  | .hbm, ⟨18, _⟩ => ⟨S4x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x256x64, .f32⟩
  | .local _ .vmem, ⟨9, _⟩ => ⟨S1x256x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  bcast_S_S4x2048 : S_.BroadcastsInDim S4x2048 (![] : Fin 0 → Fin S4x2048.rank)
  bcast_S4x2048_S4x16x2048_0_2 : S4x2048.BroadcastsInDim S4x16x2048 (![0, 2] : Fin 2 → Fin S4x16x2048.rank)
  shapeCasts_S4x16x2048_S64x2048 : S4x16x2048.ShapeCasts S64x2048
  shapeCasts_S64x2048_S64x1x2048 : S64x2048.ShapeCasts S64x1x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x256x64 : S256x64.ShapeCasts S1x256x64
  shapeCasts_S64x2048x64_S4x16x2048x64 : S64x2048x64.ShapeCasts S4x16x2048x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S64x2048x64.size a
  hwx0_0 : ∀ i : grid0.Coords, EltTy.bits .f32 = 32 ∨ (Rect.block (s := S64x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S64x1x2048.size a
  hwx0_3 : ∀ i : grid0.Coords, EltTy.bits .f32 = 32 ∨ (Rect.block (s := S64x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S64x2048x64.size a
  hwx0_4 : ∀ i : grid0.Coords, EltTy.bits .f32 = 32 ∨ (Rect.block (s := S64x2048x64) S1x256x64.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x2048 : Shape := ⟨2, ![4, 2048]⟩
abbrev S4x16x2048x2048 : Shape := ⟨4, ![4, 16, 2048, 2048]⟩
abbrev S_ : Shape := ⟨0, ![]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x1x1x2048, .f32⟩
  | .hbm, ⟨13, _⟩ => ⟨S_, .f32⟩
  | .hbm, ⟨14, _⟩ => ⟨S4x1x1x2048, .f32⟩
  | .hbm, ⟨15, _⟩ => ⟨S4x1x1x2048, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Attention.lean ====
/-
  Attention over one key axis, as a function on the extended reals: the scores of one query row against every key
  (a dot product scaled by 1/8, plus a per-key bias), the row's maximum, the weights exp(score − maximum), and the
  weighted average of one value column. Both programs compute this function; they differ in where the division by
  the weights' sum is taken (after the weighted sum, or on each weight before it), in how the scale 1/8 is applied
  (a product with 1/8, or a quotient by 8) and in the sign convention of the bias. The laws that join the two
  arrangements are proved here; they need every score to be a real number, which finite inputs give.
-/
import Idealize.ShloMosaic.PureOps.Ideal
import Idealize.ShloMosaic.PureOps.Ideal.Laws
import Idealize.ShloMosaic.Lib.ValueIdx

noncomputable section

namespace Attention

open Idealize.ShloMosaic Idealize.ShloMosaic.ValueIdx

/-- −∞, written as the f32 pattern both programs start a row's maximum from. -/
abbrev negInf : EReal := Ideal.ofBits .f32 0xFF800000#32
/-- The scale 1/sqrt(64) = 1/8 as the f32 pattern the kernel multiplies by. -/
abbrev eighth : EReal := Ideal.ofBits .f32 0x3E000000#32
/-- −10⁶, the kernel's bias magnitude for a masked key. -/
abbrev negMillion : EReal := Ideal.ofBits .f32 0xC9742400#32
/-- 1.0. -/
abbrev oneF : EReal := Ideal.ofBits .f32 0x3F800000#32

/-- The maximum of a row of scores, folded from −∞. -/
def rowMax {n : Nat} (s : Fin n → EReal) : EReal := (Finset.univ : Finset (Fin n)).fold max negInf s

/-- The unnormalised softmax weight of key `k`: exp(score − row maximum). -/
def weight {n : Nat} (s : Fin n → EReal) (k : Fin n) : EReal := Ideal.exp (s k - rowMax s)

/-- The softmax-weighted average of `v` under the scores `s`, the division taken once, after the weighted sum. -/
def attend {n : Nat} (s v : Fin n → EReal) : EReal := Ideal.div (∑ k, weight s k * v k) (∑ k, weight s k)

/-- The score of a query row against key `k`: the dot product over the 64 features, times 1/8, plus the key's bias. -/
def score (qrow : Fin 64 → EReal) (kmat : Fin 2048 → Fin 64 → EReal) (bias : Fin 2048 → EReal) (k : Fin 2048) : EReal :=
  (∑ e : Fin 64, qrow e * kmat k e) * eighth + bias k

/-- The additive key-padding bias: −10⁶ · (1 − mask), the mask word read as a signed integer. -/
def keyBias (mrow : Fin 2048 → BitVec 32) (k : Fin 2048) : EReal :=
  negMillion * (oneF - (((mrow k).toInt : ℝ) : EReal))

abbrev QShape : Shape := ⟨4, ![4, 16, 2048, 64]⟩
abbrev MShape : Shape := ⟨2, ![4, 2048]⟩

/-- The attention output at (batch, head, query, feature), as one function of the four argument arrays. -/
def result (Q K V : QShape.Idx → EReal) (Mk : MShape.Idx → BitVec 32) : QShape.Idx → EReal := fun i =>
  attend (score (fun e => Q (ix4 (i 0) (i 1) (i 2) e)) (fun k e => K (ix4 (i 0) (i 1) k e)) (keyBias fun k => Mk (ix2 (i 0) k)))
    (fun k => V (ix4 (i 0) (i 1) k (i 3)))

end Attention

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.Payload.lean ====
/-
  What the kernel body stores, read at an index. The body loads a block of 256 query rows, the head's 2048 key rows and
  value rows, and the head's row of 2048 key biases; it forms the 256 × 2048 scores (query · key over the 64 features,
  times 1/8, plus the key's bias), each row's maximum, the weights exp(score − maximum), each row's weight sum, the
  256 × 64 weighted sums of the value rows, and stores the quotient. At (row r, feature d) the stored value is therefore
  the softmax-weighted average of value column d under row r's scores.
-/
import proofs.«121428_j71038759076391_2_alg».proof.Proof.Gen.KernelIdeal.Skeleton
import proofs.«121428_j71038759076391_2_alg».proof.Proof.Attention
import proofs.«121428_j71038759076391_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The contraction of query rows with key rows over the 64 features. -/
abbrev dQK : DotDims S256x64 S2048x64 S256x2048 := dot_S256x64_S2048x64_S256x2048_1_1_0_0_n_n
/-- The contraction of weight rows with value columns over the 2048 keys. -/
abbrev dPV : DotDims S256x2048 S2048x64 S256x64 := dot_S256x2048_S2048x64_S256x64_1_0_0_1_n_n

/-! ## The two matrix products at an index -/

theorem lhsQK_0 (i : S256x2048.Idx) (q : dQK.contr.Idx) : (dQK.lhsIdx i q 0).val = (i 0).val := by
  unfold DotDims.lhsIdx
  rw [dif_neg (show ¬(0 : Fin S256x64.rank) ∈ dQK.lhsBatch by decide), dif_pos (show (0 : Fin S256x64.rank) ∈ dQK.lhsNonContracting by decide)]
  rfl
theorem lhsQK_1 (i : S256x2048.Idx) (q : dQK.contr.Idx) : (dQK.lhsIdx i q 1).val = (q ⟨0, by decide⟩).val :=
  dQK.lhsIdx_val_of_single rfl i q
theorem rhsQK_0 (i : S256x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem rhsQK_1 (i : S256x2048.Idx) (q : dQK.contr.Idx) : (dQK.rhsIdx i q 1).val = (q ⟨0, by decide⟩).val :=
  dQK.rhsIdx_val_of_single rfl i q

/-- Query rows times key rows, into a zero accumulator: at (p, k) the dot product of query row p with key row k. -/
theorem qk_apply (l : FVec Ideal S256x64 .bf16) (r : FVec Ideal S2048x64 .bf16) (p : Fin 256) (k : Fin 2048) :
    matmul dQK none l r (constant S256x2048 .f32 0x00000000#32) (ix2 p k) = ∑ e : Fin 64, l (ix2 p e) * r (ix2 k e) := by
  refine (Ideal.matmul_constant_zero_apply dQK none l r (ix2 p k)).trans ?_
  rw [← Equiv.sum_comp (contrEquiv1 dQK 64 rfl rfl).symm]
  refine Finset.sum_congr rfl fun e _ => ?_
  have he := contrEquiv1_symm_val dQK 64 rfl rfl e
  have el : dQK.lhsIdx (ix2 p k) ((contrEquiv1 dQK 64 rfl rfl).symm e) = ix2 p e := funext fun a => Fin.ext (by
    match a with
    | ⟨0, _⟩ => exact lhsQK_0 _ _
    | ⟨1, _⟩ => exact (lhsQK_1 _ _).trans he)
  have er : dQK.rhsIdx (ix2 p k) ((contrEquiv1 dQK 64 rfl rfl).symm e) = ix2 k e := funext fun a => Fin.ext (by
    match a with
    | ⟨0, _⟩ => exact rhsQK_0 _ _
    | ⟨1, _⟩ => exact (rhsQK_1 _ _).trans he)
  rw [el, er]

theorem lhsPV_0 (i : S256x64.Idx) (q : dPV.contr.Idx) : (dPV.lhsIdx i q 0).val = (i 0).val := by
  unfold DotDims.lhsIdx
  rw [dif_neg (show ¬(0 : Fin S256x2048.rank) ∈ dPV.lhsBatch by decide), dif_pos (show (0 : Fin S256x2048.rank) ∈ dPV.lhsNonContracting by decide)]
  rfl
theorem lhsPV_1 (i : S256x64.Idx) (q : dPV.contr.Idx) : (dPV.lhsIdx i q 1).val = (q ⟨0, by decide⟩).val :=
  dPV.lhsIdx_val_of_single rfl i q
theorem rhsPV_0 (i : S256x64.Idx) (q : dPV.contr.Idx) : (dPV.rhsIdx i q 0).val = (q ⟨0, by decide⟩).val :=
  dPV.rhsIdx_val_of_single rfl i q
theorem rhsPV_1 (i : S256x64.Idx) (q : dPV.contr.Idx) : (dPV.rhsIdx i q 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- Weight rows times value columns, into a zero accumulator: at (p, d) the sum over keys of weight (p, k) times value (k, d). -/
theorem pv_apply (l : FVec Ideal S256x2048 .bf16) (r : FVec Ideal S2048x64 .bf16) (p : Fin 256) (d : Fin 64) :
    matmul dPV none l r (constant S256x64 .f32 0x00000000#32) (ix2 p d) = ∑ k : Fin 2048, l (ix2 p k) * r (ix2 k d) := by
  refine (Ideal.matmul_constant_zero_apply dPV none l r (ix2 p d)).trans ?_
  rw [← Equiv.sum_comp (contrEquiv1 dPV 2048 rfl rfl).symm]
  refine Finset.sum_congr rfl fun k _ => ?_
  have hk := contrEquiv1_symm_val dPV 2048 rfl rfl k
  have el : dPV.lhsIdx (ix2 p d) ((contrEquiv1 dPV 2048 rfl rfl).symm k) = ix2 p k := funext fun a => Fin.ext (by
    match a with
    | ⟨0, _⟩ => exact lhsPV_0 _ _
    | ⟨1, _⟩ => exact (lhsPV_1 _ _).trans hk)
  have er : dPV.rhsIdx (ix2 p d) ((contrEquiv1 dPV 2048 rfl rfl).symm k) = ix2 k d := funext fun a => Fin.ext (by
    match a with
    | ⟨0, _⟩ => exact (rhsPV_0 _ _).trans hk
    | ⟨1, _⟩ => exact rhsPV_1 _ _)
  rw [el, er]

/-! ## The body's stages -/

/-- The 256 × 2048 scores of the block's query rows against the head's keys. -/
def scores (x0 : Vec Ideal S1x256x64 .f32) (x1 : Vec Ideal S1x2048x64 .f32) (x3 : Vec Ideal S1x1x2048 .f32) : FVec Ideal S256x2048 .f32 :=
  addf (mulf (matmul dQK none (truncf .bf16 (shapeCast S256x64 x0 shapeCasts_S1x256x64_S256x64) bitsLt_bf16_f32)
      (truncf .bf16 (shapeCast S2048x64 x1 shapeCasts_S1x2048x64_S2048x64) bitsLt_bf16_f32) (constant S256x2048 .f32 0x00000000#32))
    (broadcast S256x2048 (Scalar.ofBits .f32 0x3E000000#32)))
    (broadcastTo S256x2048 (shapeCast S1x2048 x3 shapeCasts_S1x1x2048_S1x2048) broadcasts_S1x2048_S256x2048)

/-- The weights: exp(score − row maximum). -/
def weights (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1) broadcasts_S256x1_S256x2048))

/-- The stored block: the weighted sums of the value rows, over the rows' weight sums. -/
def averaged (p : FVec Ideal S256x2048 .f32) (x2 : Vec Ideal S1x2048x64 .f32) : FVec Ideal S1x256x64 .f32 :=
  shapeCast S1x256x64 (divf (matmul dPV none (truncf .bf16 p bitsLt_bf16_f32)
      (truncf .bf16 (shapeCast S2048x64 x2 shapeCasts_S1x2048x64_S2048x64) bitsLt_bf16_f32) (constant S256x64 .f32 0x00000000#32))
    (broadcastTo S256x64 (shapeCast S256x1
      (multiReduction .add [1] S256 p 0x00000000#32 reduces_S256x2048_S256 (.inl rfl) rfl) shapeCasts_S256_S256x1) broadcasts_S256x1_S256x64))
    shapeCasts_S256x64_S1x256x64

/-- The stored value is these three stages composed. -/
theorem pay_eq (x0 : Vec Ideal S1x256x64 .f32) (x1 : Vec Ideal S1x2048x64 .f32) (x3 : Vec Ideal S1x1x2048 .f32) (x2 : Vec Ideal S1x2048x64 .f32) :
    k0_pay1 (F := Ideal) x0 x1 x3 x2 = averaged (weights (scores x0 x1 x3)) x2 := rfl

/-- A score at (row r, key k). -/
theorem scores_apply (x0 : Vec Ideal S1x256x64 .f32) (x1 : Vec Ideal S1x2048x64 .f32) (x3 : Vec Ideal S1x1x2048 .f32) (r : Fin 256) (k : Fin 2048) :
    scores x0 x1 x3 (ix2 r k) = Attention.score (fun e => x0 (ix3 (0 : Fin 1) r e)) (fun k e => x1 (ix3 (0 : Fin 1) k e))
      (fun k => x3 (ix3 (0 : Fin 1) (0 : Fin 1) k)) k := by
  unfold scores Attention.score
  show (matmul dQK none _ _ _ (ix2 r k)) * Ideal.ofBits .f32 0x3E000000#32 + broadcastTo S256x2048 _ _ (ix2 r k) = _
  rw [qk_apply, broadcastTo_1b_ab_apply, shapeCast_1ab_ab_apply]
  refine congrArg (fun z => z * Attention.eighth + x3 (ix3 (0 : Fin 1) (0 : Fin 1) k)) (Finset.sum_congr rfl fun e _ => ?_)
  show shapeCast S256x64 x0 _ (ix2 r e) * shapeCast S2048x64 x1 _ (ix2 k e) = _
  rw [shapeCast_1ab_ab_apply, shapeCast_1ab_ab_apply]

/-- A weight at (row r, key k): exp of the score less the row's maximum. -/
theorem weights_apply (s : FVec Ideal S256x2048 .f32) (r : Fin 256) (k : Fin 2048) :
    weights s (ix2 r k) = Attention.weight (fun k => s (ix2 r k)) k := by
  unfold weights Attention.weight Attention.rowMax
  show Ideal.exp (s (ix2 r k) - broadcastTo S256x2048 _ _ (ix2 r k)) = _
  rw [RowOps.broadcastTo_a1_ab_apply, RowOps.shapeCast_a_a1_apply]
  exact congrArg (fun z => Ideal.exp (s (ix2 r k) - z))
    (RowOps.rowMax_apply s 0xFF800000#32 reduces_S256x2048_S256 (.inl rfl) rfl r)

/-- The stored value at (row r, feature d). -/
theorem averaged_apply (p : FVec Ideal S256x2048 .f32) (x2 : Vec Ideal S1x2048x64 .f32) (u : Fin 1) (r : Fin 256) (d : Fin 64) :
    averaged p x2 (ix3 u r d) = Ideal.div (∑ k : Fin 2048, p (ix2 r k) * x2 (ix3 (0 : Fin 1) k d)) (∑ k : Fin 2048, p (ix2 r k)) := by
  unfold averaged
  rw [shapeCast_ab_1ab_apply]
  show Ideal.div (matmul (F := Ideal) dPV none _ _ _ (ix2 r d)) (broadcastTo S256x64 _ _ (ix2 r d)) = _
  rw [pv_apply, RowOps.broadcastTo_a1_ab_apply, RowOps.shapeCast_a_a1_apply]
  refine (congrArg (Ideal.div _) (RowOps.rowSum_apply p 0x00000000#32 reduces_S256x2048_S256 (.inl rfl) rfl r)).trans ?_
  refine congrArg (fun z => Ideal.div z (∑ k : Fin 2048, p (ix2 r k))) (Finset.sum_congr rfl fun k _ => ?_)
  show p (ix2 r k) * shapeCast S2048x64 x2 _ (ix2 k d) = _
  rw [shapeCast_1ab_ab_apply]

/-- THE STORED VALUE at (row r, feature d): the softmax-weighted average of value column d under row r's scores. -/
theorem pay_apply (x0 : Vec Ideal S1x256x64 .f32) (x1 : Vec Ideal S1x2048x64 .f32) (x3 : Vec Ideal S1x1x2048 .f32) (x2 : Vec Ideal S1x2048x64 .f32)
    (u : Fin 1) (r : Fin 256) (d : Fin 64) :
    k0_pay1 (F := Ideal) x0 x1 x3 x2 (ix3 u r d)
      = Attention.attend (Attention.score (fun e => x0 (ix3 (0 : Fin 1) r e)) (fun k e => x1 (ix3 (0 : Fin 1) k e))
          (fun k => x3 (ix3 (0 : Fin 1) (0 : Fin 1) k))) (fun k => x2 (ix3 (0 : Fin 1) k d)) := by
  rw [pay_eq, averaged_apply]
  unfold Attention.attend
  have hs : (fun k => scores x0 x1 x3 (ix2 r k)) = Attention.score (fun e => x0 (ix3 (0 : Fin 1) r e)) (fun k e => x1 (ix3 (0 : Fin 1) k e))
      (fun k => x3 (ix3 (0 : Fin 1) (0 : Fin 1) k)) := funext fun k => scores_apply x0 x1 x3 r k
  simp only [weights_apply, hs]

end Cert.KernelIdeal.Body

end
-- ==== Proof.Blocks.lean ====
/-
  From blocks to the array. The grid has a point per (head, block of 256 query rows); the point's output block is rows
  256·j … 256·j + 255 of head h in the head-major result array, and its input blocks are the same rows of the queries
  and the whole of head h's keys, values and key biases. So every block a point writes back is a restriction of ONE
  function of the arrays as the region finds them — cell (h, q, d) is the softmax-weighted average of value column d of
  head h under query row q's scores — and, the blocks tiling the array, the array ends holding that function.
-/
import proofs.«121428_j71038759076391_2_alg».proof.Proof.Gen.KernelIdeal.Frame
import proofs.«121428_j71038759076391_2_alg».proof.Proof.Payload
import Idealize.ShloMosaic.Lib.Pipeline.Value

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- One cell of the head-major result: head `bh`, query row `q`, feature `d`. -/
def cell (A0 A1 A2 : S64x2048x64.Idx → EReal) (A3 : S64x1x2048.Idx → EReal) (bh : Fin 64) (q : Fin 2048) (d : Fin 64) : EReal :=
  Attention.attend (Attention.score (fun e => A0 (ix3 bh q e)) (fun k e => A1 (ix3 bh k e)) (fun k => A3 (ix3 bh (0 : Fin 1) k)))
    (fun k => A2 (ix3 bh k d))

/-- The head-major result array as one function of the four arrays the region stages. -/
def headMajor (A0 A1 A2 : S64x2048x64.Idx → EReal) (A3 : S64x1x2048.Idx → EReal) : S64x2048x64.Idx → EReal :=
  fun i => cell A0 A1 A2 A3 (i 0) (i 1) (i 2)

theorem headMajor_apply (A0 A1 A2 : S64x2048x64.Idx → EReal) (A3 : S64x1x2048.Idx → EReal) (i : S64x2048x64.Idx)
    (bh : Fin 64) (q : Fin 2048) (d : Fin 64) (h0 : (i 0).val = bh.val) (h1 : (i 1).val = q.val) (h2 : (i 2).val = d.val) :
    headMajor A0 A1 A2 A3 i = cell A0 A1 A2 A3 bh q d := by
  have e : i = ix3 bh q d := funext fun a => Fin.ext (by
    match a with
    | ⟨0, _⟩ => exact h0
    | ⟨1, _⟩ => exact h1
    | ⟨2, _⟩ => exact h2)
  subst e
  rfl

/-- The printed index maps over the 512 grid points: point t is head t / 8, row block t % 8; the queries' and the
    output's blocks move with both, the keys', values' and biases' with the head only. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

theorem t_lt (t : Fin cfg0.N) : t.val < 512 := Nat.lt_of_lt_of_eq t.isLt N_0

/-! ## The input blocks as rows of the staged arrays -/

theorem iblk0_apply (c : Dev nD) (t : Fin cfg0.N) (x : S1x256x64.Idx) (k : S64x2048x64.Idx)
    (hk0 : (k 0).val = t.val / 8 + (x 0).val) (hk1 : (k 1).val = t.val % 8 * 256 + (x 1).val) (hk2 : (k 2).val = (x 2).val) :
    (iblk m c 0 t : Vec Ideal S1x256x64 .f32) x = (V m c main_v0 : S64x2048x64.Idx → EReal) k := by
  obtain ⟨h0, h1, h2, -⟩ := idx_facts t
  unfold iblk
  rw [View.read_apply]
  show (V m c main_v0 : S64x2048x64.Idx → EReal) _ = (V m c main_v0 : S64x2048x64.Idx → EReal) _
  refine congrArg (V m c main_v0 : S64x2048x64.Idx → EReal) (funext fun a => Fin.ext ?_)
  match a with
  | ⟨0, _⟩ => show win0_0.index t (0 : Fin 3) * 1 + 1 * (x 0).val = (k 0).val; rw [h0, hk0]; omega
  | ⟨1, _⟩ => show win0_0.index t (1 : Fin 3) * 256 + 1 * (x 1).val = (k 1).val; rw [h1, hk1]; omega
  | ⟨2, _⟩ => show win0_0.index t (2 : Fin 3) * 64 + 1 * (x 2).val = (k 2).val; rw [h2, hk2]; omega

theorem iblk1_apply (c : Dev nD) (t : Fin cfg0.N) (x : S1x2048x64.Idx) (k : S64x2048x64.Idx)
    (hk0 : (k 0).val = t.val / 8 + (x 0).val) (hk1 : (k 1).val = (x 1).val) (hk2 : (k 2).val = (x 2).val) :
    (iblk m c 1 t : Vec Ideal S1x2048x64 .f32) x = (V m c main_v1 : S64x2048x64.Idx → EReal) k := by
  obtain ⟨-, -, -, h0, h1, h2, -⟩ := idx_facts t
  unfold iblk
  rw [View.read_apply]
  show (V m c main_v1 : S64x2048x64.Idx → EReal) _ = (V m c main_v1 : S64x2048x64.Idx → EReal) _
  refine congrArg (V m c main_v1 : S64x2048x64.Idx → EReal) (funext fun a => Fin.ext ?_)
  match a with
  | ⟨0, _⟩ => show win0_1.index t (0 : Fin 3) * 1 + 1 * (x 0).val = (k 0).val; rw [h0, hk0]; omega
  | ⟨1, _⟩ => show win0_1.index t (1 : Fin 3) * 2048 + 1 * (x 1).val = (k 1).val; rw [h1, hk1]; omega
  | ⟨2, _⟩ => show win0_1.index t (2 : Fin 3) * 64 + 1 * (x 2).val = (k 2).val; rw [h2, hk2]; omega

theorem iblk2_apply (c : Dev nD) (t : Fin cfg0.N) (x : S1x2048x64.Idx) (k : S64x2048x64.Idx)
    (hk0 : (k 0).val = t.val / 8 + (x 0).val) (hk1 : (k 1).val = (x 1).val) (hk2 : (k 2).val = (x 2).val) :
    (iblk m c 2 t : Vec Ideal S1x2048x64 .f32) x = (V m c main_v2 : S64x2048x64.Idx → EReal) k := by
  obtain ⟨-, -, -, -, -, -, h0, h1, h2, -⟩ := idx_facts t
  unfold iblk
  rw [View.read_apply]
  show (V m c main_v2 : S64x2048x64.Idx → EReal) _ = (V m c main_v2 : S64x2048x64.Idx → EReal) _
  refine congrArg (V m c main_v2 : S64x2048x64.Idx → EReal) (funext fun a => Fin.ext ?_)
  match a with
  | ⟨0, _⟩ => show win0_2.index t (0 : Fin 3) * 1 + 1 * (x 0).val = (k 0).val; rw [h0, hk0]; omega
  | ⟨1, _⟩ => show win0_2.index t (1 : Fin 3) * 2048 + 1 * (x 1).val = (k 1).val; rw [h1, hk1]; omega
  | ⟨2, _⟩ => show win0_2.index t (2 : Fin 3) * 64 + 1 * (x 2).val = (k 2).val; rw [h2, hk2]; omega

theorem iblk3_apply (c : Dev nD) (t : Fin cfg0.N) (x : S1x1x2048.Idx) (k : S64x1x2048.Idx)
    (hk0 : (k 0).val = t.val / 8 + (x 0).val) (hk1 : (k 1).val = (x 1).val) (hk2 : (k 2).val = (x 2).val) :
    (iblk m c 3 t : Vec Ideal S1x1x2048 .f32) x = (V m c main_v10 : S64x1x2048.Idx → EReal) k := by
  obtain ⟨-, -, -, -, -, -, -, -, -, h0, h1, h2, -⟩ := idx_facts t
  unfold iblk
  rw [View.read_apply]
  show (V m c main_v10 : S64x1x2048.Idx → EReal) _ = (V m c main_v10 : S64x1x2048.Idx → EReal) _
  refine congrArg (V m c main_v10 : S64x1x2048.Idx → EReal) (funext fun a => Fin.ext ?_)
  match a with
  | ⟨0, _⟩ => show win0_3.index t (0 : Fin 3) * 1 + 1 * (x 0).val = (k 0).val; rw [h0, hk0]; omega
  | ⟨1, _⟩ => show win0_3.index t (1 : Fin 3) * 1 + 1 * (x 1).val = (k 1).val; rw [h1, hk1]; omega
  | ⟨2, _⟩ => show win0_3.index t (2 : Fin 3) * 2048 + 1 * (x 2).val = (k 2).val; rw [h2, hk2]; omega

/-! ## What a point writes back, the cover, and the array after the run -/

/-- WHAT POINT `t` WRITES BACK is block `t` of the head-major result of the arrays as the region finds them. -/
theorem flushed_eq (c : Dev nD) (t : Fin cfg0.N) :
    (dats m 0 c).flushed 4 t = ((cfg0.win 4).blk t).view.read (Elt Ideal)
      (headMajor (V m c main_v0) (V m c main_v1) (V m c main_v2) (V m c main_v10)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x2048x64) hz3, View.ld_unit_zero (S := S1x1x2048) hz3]
  have ht := t_lt t
  obtain ⟨-, -, -, -, -, -, -, -, -, -, -, -, h40, h41, h42⟩ := idx_facts t
  funext j
  obtain ⟨u, r, d, rfl⟩ : ∃ (u : Fin 1) (r : Fin 256) (d : Fin 64), j = ix3 u r d := ⟨j 0, j 1, j 2, eq_ix3 j⟩
  show k0_pay1 (F := Ideal) (iblk m c 0 t) (iblk m c 1 t) (iblk m c 3 t) (iblk m c 2 t) (ix3 u r d)
    = headMajor (V m c main_v0) (V m c main_v1) (V m c main_v2) (V m c main_v10) (((cfg0.win 4).blk t).view.emb (ix3 u r d))
  refine (Body.pay_apply (iblk m c 0 t) (iblk m c 1 t) (iblk m c 3 t) (iblk m c 2 t) u r d).trans ?_
  have hu : u.val = 0 := by omega
  have hr := r.isLt
  have hbh : t.val / 8 < 64 := by omega
  have hq : t.val % 8 * 256 + r.val < 2048 := by omega
  rw [headMajor_apply _ _ _ _ (((cfg0.win 4).blk t).view.emb (ix3 u r d)) ⟨t.val / 8, hbh⟩ ⟨t.val % 8 * 256 + r.val, hq⟩ d
    (by show win0_4.index t (0 : Fin 3) * 1 + 1 * u.val = t.val / 8; rw [h40]; omega)
    (by show win0_4.index t (1 : Fin 3) * 256 + 1 * r.val = t.val % 8 * 256 + r.val; rw [h41]; omega)
    (by show win0_4.index t (2 : Fin 3) * 64 + 1 * d.val = d.val; rw [h42]; omega)]
  unfold cell
  have e0 : (fun e : Fin 64 => (iblk m c 0 t : Vec Ideal S1x256x64 .f32) (ix3 (0 : Fin 1) r e))
      = fun e : Fin 64 => (V m c main_v0 : S64x2048x64.Idx → EReal) (ix3 (⟨t.val / 8, hbh⟩ : Fin 64) (⟨t.val % 8 * 256 + r.val, hq⟩ : Fin 2048) e) :=
    funext fun e => iblk0_apply m c t _ _ (by show t.val / 8 = t.val / 8 + 0; omega) rfl rfl
  have e1 : (fun (k : Fin 2048) (e : Fin 64) => (iblk m c 1 t : Vec Ideal S1x2048x64 .f32) (ix3 (0 : Fin 1) k e))
      = fun (k : Fin 2048) (e : Fin 64) => (V m c main_v1 : S64x2048x64.Idx → EReal) (ix3 (⟨t.val / 8, hbh⟩ : Fin 64) k e) :=
    funext fun k => funext fun e => iblk1_apply m c t _ _ (by show t.val / 8 = t.val / 8 + 0; omega) rfl rfl
  have e2 : (fun k : Fin 2048 => (iblk m c 2 t : Vec Ideal S1x2048x64 .f32) (ix3 (0 : Fin 1) k d))
      = fun k : Fin 2048 => (V m c main_v2 : S64x2048x64.Idx → EReal) (ix3 (⟨t.val / 8, hbh⟩ : Fin 64) k d) :=
    funext fun k => iblk2_apply m c t _ _ (by show t.val / 8 = t.val / 8 + 0; omega) rfl rfl
  have e3 : (fun k : Fin 2048 => (iblk m c 3 t : Vec Ideal S1x1x2048 .f32) (ix3 (0 : Fin 1) (0 : Fin 1) k))
      = fun k : Fin 2048 => (V m c main_v10 : S64x1x2048.Idx → EReal) (ix3 (⟨t.val / 8, hbh⟩ : Fin 64) (0 : Fin 1) k) :=
    funext fun k => iblk3_apply m c t _ _ (by show t.val / 8 = t.val / 8 + 0; omega) rfl rfl
  rw [e0, e1, e2, e3]

/-- An index of the array is in point `t`'s block iff each coordinate is in the block's range on its axis. -/
theorem mem_blk (t : Fin cfg0.N) (i : S64x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v11).slice (win0_4.rect t)).set ↔ _
  rw [View.set_slice_whole, Rect.mem_set_unit]
  exact Iff.rfl

/-- Every cell (h, q, d) is in the block of the point (h, q / 256). -/
theorem cover (i : S64x2048x64.Idx) : ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 64 := (i 2).isLt
  have hlt : (i 0).val * 8 + (i 1).val / 256 < cfg0.N := Nat.lt_of_lt_of_eq (by omega : (i 0).val * 8 + (i 1).val / 256 < 512) N_0.symm
  refine ⟨⟨(i 0).val * 8 + (i 1).val / 256, hlt⟩, flush0_4 _, ?_⟩
  rw [mem_blk]
  obtain ⟨-, -, -, -, -, -, -, -, -, -, -, -, h40, h41, h42⟩ := idx_facts ⟨(i 0).val * 8 + (i 1).val / 256, hlt⟩
  intro a
  match a with
  | ⟨0, _⟩ =>
    show win0_4.index _ (0 : Fin 3) * 1 ≤ (i 0).val ∧ (i 0).val < win0_4.index _ (0 : Fin 3) * 1 + 1
    rw [h40]; show ((i 0).val * 8 + (i 1).val / 256) / 8 * 1 ≤ (i 0).val ∧ (i 0).val < ((i 0).val * 8 + (i 1).val / 256) / 8 * 1 + 1; omega
  | ⟨1, _⟩ =>
    show win0_4.index _ (1 : Fin 3) * 256 ≤ (i 1).val ∧ (i 1).val < win0_4.index _ (1 : Fin 3) * 256 + 256
    rw [h41]; show ((i 0).val * 8 + (i 1).val / 256) % 8 * 256 ≤ (i 1).val ∧ (i 1).val < ((i 0).val * 8 + (i 1).val / 256) % 8 * 256 + 256; omega
  | ⟨2, _⟩ =>
    show win0_4.index _ (2 : Fin 3) * 64 ≤ (i 2).val ∧ (i 2).val < win0_4.index _ (2 : Fin 3) * 64 + 64
    rw [h42]; omega

/-- THE ARRAY after the run: the head-major result of the arrays as the region finds them. -/
theorem final (c : Dev nD) : (dats m 0 c).arrAt 4 cfg0.N
    = headMajor (V m c main_v0) (V m c main_v1) (V m c main_v2) (V m c main_v10) :=
  (dats m 0 c).arrAt_eq_of_cover 4 _ (fun t _ => flushed_eq m c t) (cover)

end Cert.KernelIdeal.Blocks

end
-- ==== Proof.HostSide.lean ====
/-
  The host side of the kernel program. Before the region the program reshapes the three float arguments from
  [4, 16, 2048, 64] to [64, 2048, 64] (batch and head merged into one axis, batch·16 + head) and builds the key bias
  −10⁶ · (1 − mask) over [4, 2048], broadcast over the 16 heads and reshaped to [64, 1, 2048]; after the region it
  reshapes the region's output array from [64, 2048, 64] back to [4, 16, 2048, 64]. Each of these arrays is read here
  at an index split into its coordinates: a reshape keeps the row-major position, so merged coordinate bh stands for
  batch bh / 16 and head bh % 16.
-/
import proofs.«121428_j71038759076391_2_alg».proof.Proof.Gen.KernelIdeal.Frame
import proofs.«121428_j71038759076391_2_alg».proof.Proof.Attention
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.ValueIdx Idealize.ShloMosaic.TcCoe Idealize.SL.Sem

/-! ### The reshapes at an index -/

/-- [4, 16, 2048, 64] reshaped to [64, 2048, 64], read at (bh, q, e): the operand at (bh / 16, bh % 16, q, e). -/
theorem reshape_merge {α : Type} (x : S4x16x2048x64.Idx → α) (hc : S4x16x2048x64.ShapeCasts S64x2048x64)
    (bh : Fin 64) (q : Fin 2048) (e : Fin 64) :
    shapeCast S64x2048x64 x hc (ix3 bh q e)
      = x (ix4 (⟨bh.val / 16, by omega⟩ : Fin 4) (⟨bh.val % 16, by omega⟩ : Fin 16) q e) := by
  refine shapeCast_apply x hc _ _ ?_
  rw [Shape.rowMajor_val_four, Shape.rowMajor_val_three]
  show ((bh.val / 16 * 16 + bh.val % 16) * 2048 + q.val) * 64 + e.val = (bh.val * 2048 + q.val) * 64 + e.val
  omega

/-- [64, 2048, 64] reshaped to [4, 16, 2048, 64], read at (b, h, q, d): the operand at (b · 16 + h, q, d). -/
theorem reshape_split {α : Type} (x : S64x2048x64.Idx → α) (hc : S64x2048x64.ShapeCasts S4x16x2048x64)
    (b : Fin 4) (h : Fin 16) (q : Fin 2048) (d : Fin 64) :
    shapeCast S4x16x2048x64 x hc (ix4 b h q d) = x (ix3 (⟨b.val * 16 + h.val, by omega⟩ : Fin 64) q d) := by
  refine shapeCast_apply x hc _ _ ?_
  rw [Shape.rowMajor_val_four, Shape.rowMajor_val_three]
  rfl

/-- [4, 16, 2048] reshaped to [64, 2048], read at (bh, k): the operand at (bh / 16, bh % 16, k). -/
theorem reshape_merge_bias {α : Type} (x : S4x16x2048.Idx → α) (hc : S4x16x2048.ShapeCasts S64x2048)
    (bh : Fin 64) (k : Fin 2048) :
    shapeCast S64x2048 x hc (ix2 bh k)
      = x (ix3 (⟨bh.val / 16, by omega⟩ : Fin 4) (⟨bh.val % 16, by omega⟩ : Fin 16) k) := by
  refine shapeCast_apply x hc _ _ ?_
  rw [Shape.rowMajor_val_three, Shape.rowMajor_val_two]
  show (bh.val / 16 * 16 + bh.val % 16) * 2048 + k.val = bh.val * 2048 + k.val
  omega

/-- [64, 2048] reshaped to [64, 1, 2048], read at (bh, u, k): the operand at (bh, k). -/
theorem reshape_unit {α : Type} (x : S64x2048.Idx → α) (hc : S64x2048.ShapeCasts S64x1x2048)
    (bh : Fin 64) (u : Fin 1) (k : Fin 2048) :
    shapeCast S64x1x2048 x hc (ix3 bh u k) = x (ix2 bh k) := by
  refine shapeCast_apply x hc _ _ ?_
  rw [Shape.rowMajor_val_three, Shape.rowMajor_val_two]
  show bh.val * 2048 + k.val = (bh.val * 1 + u.val) * 2048 + k.val
  omega

/-- [4, 2048] broadcast along a new head axis to [4, 16, 2048], read at (b, h, k): the operand at (b, k). -/
theorem bcast_heads {α : Type} (x : S4x2048.Idx → α) (hb : S4x2048.BroadcastsInDim S4x16x2048 (![0, 2] : Fin 2 → Fin S4x16x2048.rank))
    (b : Fin 4) (h : Fin 16) (k : Fin 2048) :
    broadcastInDim S4x16x2048 ![0, 2] hb x (ix3 b h k) = x (ix2 b k) :=
  broadcastInDim_apply _ hb x (ix3 b h k) (ix2 b k) (fun a => match a with
    | ⟨0, _⟩ => by show b.val = if (4 : Nat) = 1 then 0 else b.val; rw [if_neg (by decide)]
    | ⟨1, _⟩ => by show k.val = if (2048 : Nat) = 1 then 0 else k.val; rw [if_neg (by decide)])

variable (m : (ℓ : Loc nD τ sig) → Buf (Elt Ideal) ℓ)

/-! ### The arrays the region is entered with -/

theorem V_v0_eq (c : Dev nD) :
    (V m c main_v0 : S64x2048x64.Idx → EReal)
      = shapeCast S64x2048x64 (m ((c : Thread nD τ).loc main_arg0) : S4x16x2048x64.Idx → EReal)
          shapeCasts_S4x16x2048x64_S64x2048x64 := by
  show StableHlo.after hostOps0 (fun b => m (c, b)) (Proc.devRef .tc main_v0) = _
  after_results
  rfl

theorem V_v1_eq (c : Dev nD) :
    (V m c main_v1 : S64x2048x64.Idx → EReal)
      = shapeCast S64x2048x64 (m ((c : Thread nD τ).loc main_arg1) : S4x16x2048x64.Idx → EReal)
          shapeCasts_S4x16x2048x64_S64x2048x64 := by
  show StableHlo.after hostOps0 (fun b => m (c, b)) (Proc.devRef .tc main_v1) = _
  after_results
  rfl

theorem V_v2_eq (c : Dev nD) :
    (V m c main_v2 : S64x2048x64.Idx → EReal)
      = shapeCast S64x2048x64 (m ((c : Thread nD τ).loc main_arg2) : S4x16x2048x64.Idx → EReal)
          shapeCasts_S4x16x2048x64_S64x2048x64 := by
  show StableHlo.after hostOps0 (fun b => m (c, b)) (Proc.devRef .tc main_v2) = _
  after_results
  rfl

/-- The merged query array at (bh, q, e) is the query argument at (bh / 16, bh % 16, q, e). -/
theorem V_v0_apply (c : Dev nD) (bh : Fin 64) (q : Fin 2048) (e : Fin 64) :
    (V m c main_v0 : S64x2048x64.Idx → EReal) (ix3 bh q e)
      = (m ((c : Thread nD τ).loc main_arg0) : S4x16x2048x64.Idx → EReal)
          (ix4 (⟨bh.val / 16, by omega⟩ : Fin 4) (⟨bh.val % 16, by omega⟩ : Fin 16) q e) := by
  rw [V_v0_eq]; exact reshape_merge _ _ bh q e

/-- The merged key array at (bh, q, e) is the key argument at (bh / 16, bh % 16, q, e). -/
theorem V_v1_apply (c : Dev nD) (bh : Fin 64) (q : Fin 2048) (e : Fin 64) :
    (V m c main_v1 : S64x2048x64.Idx → EReal) (ix3 bh q e)
      = (m ((c : Thread nD τ).loc main_arg1) : S4x16x2048x64.Idx → EReal)
          (ix4 (⟨bh.val / 16, by omega⟩ : Fin 4) (⟨bh.val % 16, by omega⟩ : Fin 16) q e) := by
  rw [V_v1_eq]; exact reshape_merge _ _ bh q e

/-- The merged value array at (bh, q, e) is the value argument at (bh / 16, bh % 16, q, e). -/
theorem V_v2_apply (c : Dev nD) (bh : Fin 64) (q : Fin 2048) (e : Fin 64) :
    (V m c main_v2 : S64x2048x64.Idx → EReal) (ix3 bh q e)
      = (m ((c : Thread nD τ).loc main_arg2) : S4x16x2048x64.Idx → EReal)
          (ix4 (⟨bh.val / 16, by omega⟩ : Fin 4) (⟨bh.val % 16, by omega⟩ : Fin 16) q e) := by
  rw [V_v2_eq]; exact reshape_merge _ _ bh q e

/-- The bias array the region is entered with, as the host operations' term over the mask argument. -/
theorem V_v10_eq (c : Dev nD) :
    (V m c main_v10 : S64x1x2048.Idx → EReal)
      = shapeCast S64x1x2048 (shapeCast S64x2048 (broadcastInDim S4x16x2048 ![0, 2] bcast_S4x2048_S4x16x2048_0_2
          (mulf (F := Ideal) (broadcastInDim S4x2048 ![] bcast_S_S4x2048 (constant (F := Ideal) S_ .f32 0xC9742400#32) : FVec Ideal S4x2048 .f32)
            (subf (F := Ideal) (broadcastInDim S4x2048 ![] bcast_S_S4x2048 (constant (F := Ideal) S_ .f32 0x3F800000#32) : FVec Ideal S4x2048 .f32)
              (sitofp (F := Ideal) .f32 (m ((c : Thread nD τ).loc main_arg3) : IVec S4x2048 32)))))
          shapeCasts_S4x16x2048_S64x2048) shapeCasts_S64x2048_S64x1x2048 := by
  show StableHlo.after hostOps0 (fun b => m (c, b)) (Proc.devRef .tc main_v10) = _
  after_results
  rfl

/-- The bias array at (bh, u, k) is the key bias −10⁶ · (1 − mask) of batch bh / 16 at key k. -/
theorem V_v10_apply (c : Dev nD) (bh : Fin 64) (u : Fin 1) (k : Fin 2048) :
    (V m c main_v10 : S64x1x2048.Idx → EReal) (ix3 bh u k)
      = Attention.keyBias (fun k' => (m ((c : Thread nD τ).loc main_arg3) : S4x2048.Idx → BitVec 32)
          (ix2 (⟨bh.val / 16, by omega⟩ : Fin 4) k')) k := by
  rw [V_v10_eq, reshape_unit, reshape_merge_bias, bcast_heads]
  rfl

/-! ### The result array after the region -/

/-- The result at (b, h, q, d) is the region's output array at (b · 16 + h, q, d). -/
theorem tail_apply (c : Dev nD) (b : Fin 4) (h : Fin 16) (q : Fin 2048) (d : Fin 64) :
    (Pipeline.afterTail₀ cfgs (dats m) 0 (V0 m) [hostOps1] c main_v12 : S4x16x2048x64.Idx → EReal) (ix4 b h q d)
      = ((dats m 0 c).arrAt 4 cfg0.N : S64x2048x64.Idx → EReal) (ix3 (⟨b.val * 16 + h.val, by omega⟩ : Fin 64) q d) := by
  have e : (Pipeline.afterTail₀ cfgs (dats m) 0 (V0 m) [hostOps1] c main_v12 : S4x16x2048x64.Idx → EReal)
      = shapeCast S4x16x2048x64 ((dats m 0 c).arrAt 4 cfg0.N : S64x2048x64.Idx → EReal)
          shapeCasts_S64x2048x64_S4x16x2048x64 := by
    unfold Pipeline.afterTail₀
    show StableHlo.after hostOps1 _ (Proc.devRef .tc main_v12) = _
    after_results
    have h4 := Pipeline.withArrays_arr spec0 launch0.win.arr_inj c (V0 m c) (fun w => (dats m 0 c).arrAt w cfg0.N) 4
    rw [h4]
    rfl
  rw [e]; exact reshape_split _ _ b h q d

end Cert.KernelIdeal.Host

end
-- ==== Proof.KernelValue.lean ====
/-
  The idealized kernel program's result as one function of its arguments. The region leaves the head-major array at
  the softmax-weighted averages of the arrays it stages; those arrays are the arguments re-laid (head index
  16·b + h for batch b, head h) and the key bias −10⁶·(1 − mask) repeated over the 16 heads of a batch; the last host
  line re-lays the head-major array as (batch, head, query, feature). Composed: the attention of Proof/Attention.lean.
-/
import proofs.«121428_j71038759076391_2_alg».proof.Proof.Blocks
import proofs.«121428_j71038759076391_2_alg».proof.Proof.HostSide

noncomputable section

namespace Cert.KernelIdeal.Result

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- What the result buffer holds after the last host line: the attention of the four arguments. -/
theorem result_eq (c : Dev nD) :
    Pipeline.afterTail₀ cfgs (dats m) 0 (V0 m) [hostOps1] c main_v12
      = Attention.result (m ((c : Thread nD τ).loc main_arg0)) (m ((c : Thread nD τ).loc main_arg1))
          (m ((c : Thread nD τ).loc main_arg2)) (m ((c : Thread nD τ).loc main_arg3)) := by
  funext i
  obtain ⟨b, h, q, d, rfl⟩ : ∃ (b : Fin 4) (h : Fin 16) (q : Fin 2048) (d : Fin 64), i = ix4 b h q d :=
    ⟨i 0, i 1, i 2, i 3, eq_ix4 i⟩
  have hb := b.isLt
  have hh := h.isLt
  have hbh : b.val * 16 + h.val < 64 := by omega
  refine (Host.tail_apply m c b h q d).trans ?_
  rw [Blocks.final]
  rw [Blocks.headMajor_apply _ _ _ _ (ix3 (⟨b.val * 16 + h.val, hbh⟩ : Fin 64) q d) ⟨b.val * 16 + h.val, hbh⟩ q d rfl rfl rfl]
  unfold Blocks.cell Attention.result
  have eb : (⟨(b.val * 16 + h.val) / 16, by omega⟩ : Fin 4) = b := Fin.ext (by show (b.val * 16 + h.val) / 16 = b.val; omega)
  have eh : (⟨(b.val * 16 + h.val) % 16, by omega⟩ : Fin 16) = h := Fin.ext (by show (b.val * 16 + h.val) % 16 = h.val; omega)
  have e0 : (fun e : Fin 64 => (V m c main_v0 : S64x2048x64.Idx → EReal) (ix3 (⟨b.val * 16 + h.val, hbh⟩ : Fin 64) q e))
      = fun e : Fin 64 => (m ((c : Thread nD τ).loc main_arg0) : S4x16x2048x64.Idx → EReal) (ix4 b h q e) :=
    funext fun e => by rw [Host.V_v0_apply, eb, eh]
  have e1 : (fun (k : Fin 2048) (e : Fin 64) => (V m c main_v1 : S64x2048x64.Idx → EReal) (ix3 (⟨b.val * 16 + h.val, hbh⟩ : Fin 64) k e))
      = fun (k : Fin 2048) (e : Fin 64) => (m ((c : Thread nD τ).loc main_arg1) : S4x16x2048x64.Idx → EReal) (ix4 b h k e) :=
    funext fun k => funext fun e => by rw [Host.V_v1_apply, eb, eh]
  have e2 : (fun k : Fin 2048 => (V m c main_v2 : S64x2048x64.Idx → EReal) (ix3 (⟨b.val * 16 + h.val, hbh⟩ : Fin 64) k d))
      = fun k : Fin 2048 => (m ((c : Thread nD τ).loc main_arg2) : S4x16x2048x64.Idx → EReal) (ix4 b h k d) :=
    funext fun k => by rw [Host.V_v2_apply, eb, eh]
  have e3 : (fun k : Fin 2048 => (V m c main_v10 : S64x1x2048.Idx → EReal) (ix3 (⟨b.val * 16 + h.val, hbh⟩ : Fin 64) (0 : Fin 1) k))
      = Attention.keyBias fun k => (m ((c : Thread nD τ).loc main_arg3) : S4x2048.Idx → BitVec 32) (ix2 b k) :=
    funext fun k => by rw [Host.V_v10_apply, eb]
  rw [e0, e1, e2, e3]

/-- The run, read: the result at the attention of the arguments, the arguments unchanged. -/
theorem run : θ_run defs (onTc (τ := τ) (main (F := Ideal))) ⟨m, fun _ => 0, ρ⟩ fun r => ∀ c : Dev nD,
      r.2.mem ((c.tc : Thread nD τ).loc main_v12)
        = Attention.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.AttentionLaws.lean ====
/-
  The laws that join the two arrangements of attention over one key axis: the values of the float literals both
  programs spell, the agreement of the two ways of writing a score (a quotient by 8 and a subtracted bias against a
  product with 1/8 and an added bias), the fact that finite queries and keys give real scores, and the agreement
  of normalising each weight before the weighted sum with dividing the weighted sum once.
-/
import proofs.«121428_j71038759076391_2_alg».proof.Proof.Attention

noncomputable section

namespace Attention

open Idealize.ShloMosaic

/-! ### The literals -/

theorem eighth_eq : eighth = ((1/8 : ℝ) : EReal) := by
  simp [Ideal.ofBits, Ideal.ieee, -EReal.coe_mul]; norm_num

theorem negMillion_eq : negMillion = ((-1000000 : ℝ) : EReal) := by
  simp [Ideal.ofBits, Ideal.ieee, -EReal.coe_mul]; norm_num

theorem million_eq : Ideal.ofBits .f32 0x49742400#32 = ((1000000 : ℝ) : EReal) := by
  simp [Ideal.ofBits, Ideal.ieee, -EReal.coe_mul]; norm_num

theorem oneF_eq : oneF = ((1 : ℝ) : EReal) := by
  simp [Ideal.ofBits, Ideal.ieee, -EReal.coe_mul]; norm_num

theorem eight_eq : Ideal.ofBits .f32 0x41000000#32 = ((8 : ℝ) : EReal) := by
  simp [Ideal.ofBits, Ideal.ieee, -EReal.coe_mul]; norm_num

theorem negInf_eq : negInf = ⊥ := by
  simp [Ideal.ofBits, Ideal.ieee]

/-! ### Sums of real numbers inside the extended reals -/

/-- A finite sum of real numbers, taken in the extended reals, is the real sum. -/
theorem coe_sum {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A finite sum times a nonnegative finite factor is the sum of the products. -/
theorem sum_mul_of_nonneg_of_ne_top {ι : Type*} (S : Finset ι) (a : ι → EReal) {c : EReal} (hc : 0 ≤ c)
    (hc' : c ≠ ⊤) : (∑ i ∈ S, a i) * c = ∑ i ∈ S, a i * c := by
  classical
  induction S using Finset.induction_on with
  | empty => simp
  | insert b S hb ih =>
    rw [Finset.sum_insert hb, Finset.sum_insert hb, EReal.right_distrib_of_nonneg_of_ne_top hc hc', ih]

/-! ### The score -/

/-- A score written as a quotient by 8 minus 10⁶ · (1 − mask) is the score written as a product with 1/8 plus
    (−10⁶) · (1 − mask), at every extended real. -/
theorem score_ref (q : Fin 64 → EReal) (km : Fin 2048 → Fin 64 → EReal) (mrow : Fin 2048 → BitVec 32)
    (k : Fin 2048) :
    Ideal.div (∑ e : Fin 64, q e * km k e) (Ideal.ofBits .f32 0x41000000#32)
        - Ideal.ofBits .f32 0x49742400#32 * (oneF - (((mrow k).toInt : ℝ) : EReal))
      = score q km (keyBias mrow) k := by
  unfold score keyBias
  rw [eight_eq, million_eq, Ideal.div_coe (by norm_num : (8 : ℝ) ≠ 0), eighth_eq, negMillion_eq, sub_eq_add_neg,
    ← EReal.neg_mul, ← EReal.coe_neg]

/-- Finite queries and keys give real scores. -/
theorem score_real (q : Fin 64 → EReal) (km : Fin 2048 → Fin 64 → EReal) (mrow : Fin 2048 → BitVec 32)
    (hq : ∀ e, ∃ r : ℝ, q e = r) (hk : ∀ k e, ∃ r : ℝ, km k e = r) :
    ∀ k, ∃ r : ℝ, score q km (keyBias mrow) k = r := by
  intro k
  choose qr hqr using hq
  choose kr hkr using hk
  refine ⟨(∑ e : Fin 64, qr e * kr k e) * (1/8) + (-1000000) * (1 - ((mrow k).toInt : ℝ)), ?_⟩
  unfold score keyBias
  rw [eighth_eq, negMillion_eq, oneF_eq]
  simp only [hqr, hkr, ← EReal.coe_mul, coe_sum, ← EReal.coe_sub, ← EReal.coe_add]

/-! ### Normalising before or after the weighted sum -/

/-- With real scores, dividing every weight by the weights' sum and then averaging the values equals averaging
    with the raw weights and dividing once. The values may be any extended reals. -/
theorem attend_ref {n : Nat} (hn : 0 < n) (s v : Fin n → EReal) (hs : ∀ k, ∃ r : ℝ, s k = r) :
    ∑ k, Ideal.div (Ideal.exp (s k - max negInf (rowMax s)))
        (Ideal.ofBits .f32 0x00000000#32 + ∑ k', Ideal.exp (s k' - max negInf (rowMax s))) * v k
      = attend s v := by
  choose sr hsr using hs
  have hmax : max negInf (rowMax s) = rowMax s := by rw [negInf_eq]; exact max_eq_right bot_le
  -- the row maximum is a real number
  have hlt : rowMax s < ⊤ := by
    unfold rowMax
    refine (Finset.fold_max_lt _).mpr ⟨by rw [negInf_eq]; exact bot_lt_top, fun k _ => ?_⟩
    rw [hsr k]; exact EReal.coe_lt_top _
  have hgt : ⊥ < rowMax s := by
    unfold rowMax
    refine lt_of_lt_of_le (EReal.bot_lt_coe (sr ⟨0, hn⟩)) ?_
    exact (Finset.le_fold_max _).mpr (Or.inr ⟨⟨0, hn⟩, Finset.mem_univ _, by rw [hsr]⟩)
  obtain ⟨m, hm⟩ : ∃ m : ℝ, rowMax s = m := ⟨_, (EReal.coe_toReal hlt.ne hgt.ne').symm⟩
  -- every weight is a positive real, and so is their sum
  have hw : ∀ k, Ideal.exp (s k - rowMax s) = ((Real.exp (sr k - m) : ℝ) : EReal) := by
    intro k; rw [hm, hsr k, ← EReal.coe_sub, Ideal.exp_coe]
  have hl : 0 < ∑ k, Real.exp (sr k - m) :=
    Finset.sum_pos (fun k _ => Real.exp_pos _) ⟨⟨0, hn⟩, Finset.mem_univ _⟩
  unfold attend weight
  rw [Ideal.ofBits_zero_f32, zero_add, hmax]
  simp only [hw]
  rw [coe_sum, Ideal.div_coe hl.ne']
  simp only [Ideal.div_coe hl.ne']
  have hc : (0 : EReal) ≤ ((1 / ∑ k, Real.exp (sr k - m) : ℝ) : EReal) :=
    EReal.coe_nonneg.mpr (one_div_pos.mpr hl).le
  rw [sum_mul_of_nonneg_of_ne_top _ _ hc (EReal.coe_ne_top _)]
  exact Finset.sum_congr rfl fun k _ => mul_right_comm _ _ _

end Attention

end
-- ==== Proof.ReferenceValue.lean ====
/-
  The reference program's result as one function of its arguments: at output index (batch, head, query, feature) it is
  the attention of Proof/Attention.lean. The generated reading of the reference gives each stage at an index from its
  operands at an index; the one stage it does not read, the maximum over the key axis, is a fold over that axis's
  coordinates. Composed at an index split into its four coordinates, the stages give, in turn, the score, the row
  maximum, the weight, the weights' sum and the normalised weight; the laws of Proof/AttentionLaws.lean then turn the
  reference's arrangement (a quotient by 8, a subtracted bias, a division of every weight) into the common one.
-/
import proofs.«121428_j71038759076391_2_alg».proof.Proof.Gen.ReferenceIdeal.Read
import proofs.«121428_j71038759076391_2_alg».proof.Proof.AttentionLaws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The scores of query row (b, h, q) against every key. -/
def rowScore (x0 x1 : (⟨S4x16x2048x64, .f32⟩ : BufTy).Contents (Elt Ideal)) (x3 : (⟨S4x2048, .i32⟩ : BufTy).Contents (Elt Ideal))
    (b : Fin 4) (h : Fin 16) (q : Fin 2048) : Fin 2048 → EReal :=
  Attention.score (fun e => x0 (ix4 b h q e)) (fun k e => x1 (ix4 b h k e)) (Attention.keyBias fun k => x3 (ix2 b k))

variable (x0 x1 x2 : (⟨S4x16x2048x64, .f32⟩ : BufTy).Contents (Elt Ideal)) (x3 : (⟨S4x2048, .i32⟩ : BufTy).Contents (Elt Ideal))
variable (b : Fin 4) (h : Fin 16) (q : Fin 2048)

/-- The biased, scaled score array at (b, h, q, k) is the score of row (b, h, q) against key k. -/
theorem v10_at (k : Fin 2048) :
    val_main_v10 (F := Ideal) x0 x1 x3 (ix4 b h q k) = rowScore x0 x1 x3 b h q k := by
  rw [val_main_v10_apply, val_main_v2_apply, val_main_v0_apply, val_main_v1_apply, val_main_cst_apply,
    val_main_v9_apply, val_main_v8_apply, val_main_v7_apply, val_main_cst_1_apply, val_main_v6_apply,
    val_main_v5_apply, val_main_v4_apply, val_main_cst_0_apply, val_main_v3_apply]
  have el : ∀ e, lidx_main_v0 (ix4 b h q k) e = ix4 b h q e := fun e => funext fun a => Fin.ext (by
    match a with | ⟨0, _⟩ => rfl | ⟨1, _⟩ => rfl | ⟨2, _⟩ => rfl | ⟨3, _⟩ => rfl)
  have er : ∀ e, ridx_main_v0 (ix4 b h q k) e = ix4 b h k e := fun e => funext fun a => Fin.ext (by
    match a with | ⟨0, _⟩ => rfl | ⟨1, _⟩ => rfl | ⟨2, _⟩ => rfl | ⟨3, _⟩ => rfl)
  have em : idx_main_v6 (idx_main_v9 (ix4 b h q k)) = ix2 b k := funext fun a => Fin.ext (by
    match a with | ⟨0, _⟩ => rfl | ⟨1, _⟩ => rfl)
  simp only [el, er, em]
  exact Attention.score_ref (fun e => x0 (ix4 b h q e)) (fun k e => x1 (ix4 b h k e)) (fun k => x3 (ix2 b k)) k

/-- The reduced index (b, h, q) with key coordinate k put back is (b, h, q, k). -/
theorem lift_ix3 (hr : S4x16x2048x2048.Reduces [3] S4x16x2048) (k : Fin (S4x16x2048x2048.size 3)) :
    hr.lift (ix3 b h q) k = ix4 b h q (⟨k.val, k.isLt⟩ : Fin 2048) := by
  funext c; apply Fin.ext
  fin_cases c <;> rfl

/-- The maximum over the key axis, from −∞, at (b, h, q) is the row maximum of the scores. -/
theorem v11_at : val_main_v11 (F := Ideal) x0 x1 x3 (ix3 b h q) = Attention.rowMax (rowScore x0 x1 x3 b h q) := by
  have hr : S4x16x2048x2048.Reduces [3] S4x16x2048 := by decide
  unfold val_main_v11
  rw [Host.reduce_eq_fold_single FloatOps.maximumf _ _ reducesTo_S4x16x2048x2048_S4x16x2048_d3 hr h_S_]
  have hf : (val_main_v10 (F := Ideal) x0 x1 x3 ∘ hr.lift (ix3 b h q)) = fun k : Fin 2048 => rowScore x0 x1 x3 b h q k :=
    funext fun k => by
      show val_main_v10 (F := Ideal) x0 x1 x3 (hr.lift (ix3 b h q) k) = _
      rw [lift_ix3 b h q hr k]; exact v10_at x0 x1 x3 b h q _
  exact congrArg (fun f => Finset.fold max Attention.negInf f (Finset.univ : Finset (Fin 2048))) hf

/-- The exponentiated array at (b, h, q, k) is the weight of key k: exp(score − max(−∞, row maximum)). -/
theorem v17_at (k : Fin 2048) :
    val_main_v17 (F := Ideal) x0 x1 x3 (ix4 b h q k)
      = Ideal.exp (rowScore x0 x1 x3 b h q k - max Attention.negInf (Attention.rowMax (rowScore x0 x1 x3 b h q))) := by
  rw [val_main_v17_apply, val_main_v16_apply, val_main_v15_apply, val_main_v14_apply, val_main_v13_apply,
    val_main_v12_apply, val_main_cst_3_apply]
  have e1 : idx_main_v14 (idx_main_v15 (ix4 b h q k)) = ix3 b h q := funext fun a => Fin.ext (by
    match a with | ⟨0, _⟩ => rfl | ⟨1, _⟩ => rfl | ⟨2, _⟩ => rfl)
  rw [e1, v11_at, v10_at]
  rfl

/-- The sum over the key axis, from zero, at (b, h, q) is zero plus the sum of the row's weights. -/
theorem v18_at :
    val_main_v18 (F := Ideal) x0 x1 x3 (ix3 b h q)
      = Ideal.ofBits .f32 0x00000000#32 + ∑ k : Fin 2048, val_main_v17 (F := Ideal) x0 x1 x3 (ix4 b h q k) := by
  rw [val_main_v18_apply, val_main_cst_4_apply]
  have e1 : ∀ k, idx_main_v18 (ix3 b h q) k = ix4 b h q k := fun k => funext fun a => Fin.ext (by
    match a with | ⟨0, _⟩ => rfl | ⟨1, _⟩ => rfl | ⟨2, _⟩ => rfl | ⟨3, _⟩ => rfl)
  simp only [e1]
  rfl

/-- The normalised weight at (b, h, q, k) is the weight of key k over the row's sum. -/
theorem v21_at (k : Fin 2048) :
    val_main_v21 (F := Ideal) x0 x1 x3 (ix4 b h q k)
      = Ideal.div (val_main_v17 (F := Ideal) x0 x1 x3 (ix4 b h q k)) (val_main_v18 (F := Ideal) x0 x1 x3 (ix3 b h q)) := by
  rw [val_main_v21_apply, val_main_v20_apply, val_main_v19_apply]
  have e1 : idx_main_v19 (idx_main_v20 (ix4 b h q k)) = ix3 b h q := funext fun a => Fin.ext (by
    match a with | ⟨0, _⟩ => rfl | ⟨1, _⟩ => rfl | ⟨2, _⟩ => rfl)
  rw [e1]
  rfl

/-- With finite queries and keys the reference's result is the attention function of the four arguments. -/
theorem reference_eq (x0 x1 x2 : (⟨Cert.ReferenceIdeal.S4x16x2048x64, .f32⟩ : BufTy).Contents (Elt Ideal))
    (x3 : (⟨Cert.ReferenceIdeal.S4x2048, .i32⟩ : BufTy).Contents (Elt Ideal))
    (h0 : ∀ i, ∃ r : ℝ, x0 i = r) (h1 : ∀ i, ∃ r : ℝ, x1 i = r) :
    Cert.ReferenceIdeal.Read.val_main_v22 (F := Ideal) x0 x1 x2 x3 = Attention.result x0 x1 x2 x3 := by
  funext i
  obtain ⟨b, h, q, d, rfl⟩ : ∃ (b : Fin 4) (h : Fin 16) (q : Fin 2048) (d : Fin 64), i = ix4 b h q d :=
    ⟨i 0, i 1, i 2, i 3, eq_ix4 i⟩
  rw [val_main_v22_apply]
  have el : ∀ k, lidx_main_v22 (ix4 b h q d) k = ix4 b h q k := fun k => funext fun a => Fin.ext (by
    match a with | ⟨0, _⟩ => rfl | ⟨1, _⟩ => rfl | ⟨2, _⟩ => rfl | ⟨3, _⟩ => rfl)
  have er : ∀ k, ridx_main_v22 (ix4 b h q d) k = ix4 b h k d := fun k => funext fun a => Fin.ext (by
    match a with | ⟨0, _⟩ => rfl | ⟨1, _⟩ => rfl | ⟨2, _⟩ => rfl | ⟨3, _⟩ => rfl)
  simp only [el, er, v21_at, v18_at, v17_at]
  show _ = Attention.attend (rowScore x0 x1 x3 b h q) (fun k => x2 (ix4 b h k d))
  exact Attention.attend_ref (by norm_num) _ _
    (Attention.score_real _ _ _ (fun e => h0 _) (fun k e => h1 _))

end Cert.ReferenceIdeal.RefValue

end
-- ==== Proof.FiniteInputs.lean ====
/-
  The precondition read back: the predicate is the conjunction of three tests "every element has absolute value
  below +∞", one per float argument array, each a reduction by "and" over all four axes. When it is all ones, every
  element of the three arrays is a real number (neither infinity, and not the junk value ⊥ either, which is −∞'s
  own spelling among the extended reals).
-/
import proofs.«121428_j71038759076391_2_alg».proof.Defs
import Idealize.ShloMosaic.Lib.ReduceAll
import Idealize.ShloMosaic.Lib.ValueIdx

noncomputable section

namespace Cert.FiniteInputs

open Idealize.ShloMosaic

/-- The rank-0 shape has one index. -/
instance : Subsingleton Cert.Pre_finite_inputs.S_.Idx := ⟨fun a b => funext fun d => d.elim0⟩

/-- An extended real whose absolute value max(x, −x) is below +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The precondition all ones: the three float argument arrays hold real numbers only. -/
theorem real_of_pre (x0 x1 x2 : (⟨Cert.KernelIdeal.S4x16x2048x64, .f32⟩ : BufTy).Contents (Elt Ideal))
    (x3 : (⟨Cert.KernelIdeal.S4x2048, .i32⟩ : BufTy).Contents (Elt Ideal)) [Cert.Pre_finite_inputs.Facts]
    (h : Cert.Pre_finite_inputs.fn (F := Ideal) x0 x1 x2 x3 = fun _ => 1#1) :
    (∀ i, ∃ r : ℝ, x0 i = r) ∧ (∀ i, ∃ r : ℝ, x1 i = r) ∧ (∀ i, ∃ r : ℝ, x2 i = r) := by
  have e := congrFun h (fun d => d.elim0)
  dsimp only [Cert.Pre_finite_inputs.fn, andi] at e
  rw [IntOp.andi_eq_one, IntOp.andi_eq_one] at e
  obtain ⟨⟨e0, e1⟩, e2⟩ := e
  refine ⟨fun i => ?_, fun i => ?_, fun i => ?_⟩
  · exact real_of_abs_lt_inf _ (Host.reduce_andi_all _ _ _ _ _ e0 i)
  · exact real_of_abs_lt_inf _ (Host.reduce_andi_all _ _ _ _ _ e1 i)
  · exact real_of_abs_lt_inf _ (Host.reduce_andi_all _ _ _ _ _ e2 i)

end Cert.FiniteInputs

end
-- ==== Proof.lean ====
/-
  Dense attention with an additive key-padding bias, softmax(Q·Kᵀ/8 + bias)·V per (batch, head), as a blocked kernel
  against the plain array program. At the ideal instance both end with, at (batch, head, query, feature), the
  softmax-weighted average of a value column under the query row's scores (Proof/Attention.lean): the kernel's side
  is read off its frame run block by block (Proof/Payload.lean, Proof/Blocks.lean, Proof/HostSide.lean,
  Proof/KernelValue.lean), the reference's side stage by stage (Proof/ReferenceValue.lean). The two arrangements agree
  because every score is a real number when the queries and keys are finite (Proof/FiniteInputs.lean): the row maximum
  is then real, the weights are positive reals, their sum is a positive real, and dividing the weighted sum by it is
  dividing every weight by it (Proof/AttentionLaws.lean). The idealization rewrote nothing, so its preservation claim
  is trivial; the three frames are the generated ones.
-/
import proofs.«121428_j71038759076391_2_alg».proof.Defs
import proofs.«121428_j71038759076391_2_alg».proof.Proof.Gen.Kernel
import proofs.«121428_j71038759076391_2_alg».proof.Proof.Gen.Kernel.Skeleton
import proofs.«121428_j71038759076391_2_alg».proof.Proof.Gen.Kernel.Launch
import proofs.«121428_j71038759076391_2_alg».proof.Proof.Gen.Kernel.Points
import proofs.«121428_j71038759076391_2_alg».proof.Proof.Gen.Kernel.Frame
import proofs.«121428_j71038759076391_2_alg».proof.Proof.Gen.KernelIdeal
import proofs.«121428_j71038759076391_2_alg».proof.Proof.Gen.KernelIdeal.Skeleton
import proofs.«121428_j71038759076391_2_alg».proof.Proof.Gen.KernelIdeal.Launch
import proofs.«121428_j71038759076391_2_alg».proof.Proof.Gen.KernelIdeal.Points
import proofs.«121428_j71038759076391_2_alg».proof.Proof.Gen.KernelIdeal.Frame
import proofs.«121428_j71038759076391_2_alg».proof.Proof.Gen.ReferenceIdeal
import proofs.«121428_j71038759076391_2_alg».proof.Proof.Gen.Pre_finite_inputs
import proofs.«121428_j71038759076391_2_alg».proof.Proof.Gen.ReferenceIdeal.Run
import proofs.«121428_j71038759076391_2_alg».proof.Proof.Gen.ReferenceIdeal.Read
import proofs.«121428_j71038759076391_2_alg».proof.Proof.KernelValue
import proofs.«121428_j71038759076391_2_alg».proof.Proof.ReferenceValue
import proofs.«121428_j71038759076391_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the attention of the arguments; the reference's arrangement meets the kernel's
    because finite queries and keys make every score real. -/
theorem algebraic : Cert.algebraic_KernelIdeal_ReferenceIdeal := by
  intro m ρ m' ρ' hpre hagree
  refine ⟨fun c => Attention.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v22_eq _ _ _ _)).trans ?_
  obtain ⟨f0, f1, -⟩ := Cert.FiniteInputs.real_of_pre _ _ _ _ (hpre c)
  rw [(hagree c).1, (hagree c).2.1, (hagree c).2.2.1, (hagree c).2.2.2]
  exact Cert.ReferenceIdeal.RefValue.reference_eq _ _ _ _ f0 f1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
